-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S3x128x128 : Shape := ⟨3, ![3, 128, 128]⟩
abbrev S3x128 : Shape := ⟨2, ![3, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : FVec F S40000x128 .f32) (main_arg1 : IVec S640000 32) (main_arg2 : IVec S640000 32) (main_arg3 : FVec F S3x128x128 .f32) (main_arg4 : FVec F S3x128x128 .f32) (main_arg5 : FVec F S3x128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S40000x128 : Shape := ⟨2, ![40000, 128]⟩
abbrev S640000 : Shape := ⟨1, ![640000]⟩
abbrev S3x128x128 : Shape := ⟨3, ![3, 128, 128]⟩
abbrev S3x128 : Shape := ⟨2, ![3, 128]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x128 : Shape := ⟨2, ![640000, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S2000x128 : Shape := ⟨2, ![2000, 128]⟩

abbrev nBuf : Space → Nat
  | .hbm => 88
  | .vmem => 27
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S3x128x128, .f32⟩
  | .hbm, ⟨4, _⟩ => ⟨S3x128x128, .f32⟩
  | .hbm, ⟨5, _⟩ => ⟨S3x128, .f32⟩
  | .hbm, ⟨6, _⟩ => ⟨S_, .f32⟩
  | .hbm, ⟨7, _⟩ => ⟨S640000, .f32⟩
  | .hbm, ⟨8, _⟩ => ⟨S_, .f32⟩
  | .hbm, ⟨9, _⟩ => ⟨S40000, .f32⟩
  | .hbm, ⟨10, _⟩ => ⟨S640000x1, .i32⟩
  | .hbm, ⟨11, _⟩ => ⟨S40000, .f32⟩
  | .hbm, ⟨12, _⟩ => ⟨S_, .f32⟩
  | .hbm, ⟨13, _⟩ => ⟨S40000, .f32⟩
  | .hbm, ⟨14, _⟩ => ⟨S40000, .f32⟩
  | .hbm, ⟨15, _⟩ => ⟨S_, .f32⟩
  | .hbm, ⟨16, _⟩ => ⟨S40000, .f32⟩
  | .hbm, ⟨17, _⟩ => ⟨S40000, .f32⟩
  | .hbm, ⟨18, _⟩ => ⟨S40000x1, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .f32⟩
  | .hbm, ⟨29, _⟩ => ⟨S40000x128, .f32⟩
  | .hbm, ⟨30, _⟩ => ⟨S640000x1, .i32⟩
  | .hbm, ⟨31, _⟩ => ⟨S40000x128, .f32⟩
  | .hbm, ⟨32, _⟩ => ⟨S40000x128, .f32⟩
  | .hbm, ⟨33, _⟩ => ⟨S40000x128, .f32⟩
  | .hbm, ⟨34, _⟩ => ⟨S1x128, .f32⟩
  | .hbm, ⟨35, _⟩ => ⟨S128, .f32⟩
  | .hbm, ⟨36, _⟩ => ⟨S1x128, .f32⟩
  | .hbm, ⟨37, _⟩ => ⟨S1x128x128, .f32⟩
  | .hbm, ⟨38, _⟩ => ⟨S128x128, .f32⟩
  | .hbm, ⟨39, _⟩ => ⟨S1x128x128, .f32⟩
  | .hbm, ⟨40, _⟩ => ⟨S128x128, .f32⟩
  | .hbm, ⟨41, _⟩ => ⟨S40000x128, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x128, .f32⟩
  | .hbm, ⟨51, _⟩ => ⟨S_, .f32⟩
  | .hbm, ⟨52, _⟩ => ⟨S40000x128, .f32⟩
  | .hbm, ⟨53, _⟩ => ⟨S640000x1, .i32⟩
  | .hbm, ⟨54, _⟩ => ⟨S40000x128, .f32⟩
  | .hbm, ⟨55, _⟩ => ⟨S40000x128, .f32⟩
  | .hbm, ⟨56, _⟩ => ⟨S40000x128, .f32⟩
  | .hbm, ⟨57, _⟩ => ⟨S1x128, .f32⟩
  | .hbm, ⟨58, _⟩ => ⟨S128, .f32⟩
  | .hbm, ⟨59, _⟩ => ⟨S1x128, .f32⟩
  | .hbm, ⟨60, _⟩ => ⟨S1x128x128, .f32⟩
  | .hbm, ⟨61, _⟩ => ⟨S128x128, .f32⟩
  | .hbm, ⟨62, _⟩ => ⟨S1x128x128, .f32⟩
  | .hbm, ⟨63, _⟩ => ⟨S128x128, .f32⟩
  | .hbm, ⟨64, _⟩ => ⟨S40000x128, .f32⟩
  | .hbm, ⟨65, _⟩ => ⟨S_, .i32⟩
  | .hbm, ⟨66, _⟩ => ⟨S640000, .i32⟩
  | .hbm, ⟨67, _⟩ => ⟨S640000, .i1⟩
  | .hbm, ⟨68, _⟩ => ⟨S_, .i32⟩
  | .hbm, ⟨69, _⟩ => ⟨S640000, .i32⟩
  | .hbm, ⟨70, _⟩ => ⟨S640000, .i32⟩
  | .hbm, ⟨71, _⟩ => ⟨S640000, .i32⟩
  | .hbm, ⟨72, _⟩ => ⟨S640000x1, .i32⟩
  | .hbm, ⟨73, _⟩ => ⟨S640000x128, .f32⟩
  | .hbm, ⟨74, _⟩ => ⟨S_, .f32⟩
  | .hbm, ⟨75, _⟩ => ⟨S40000x128, .f32⟩
  | .hbm, ⟨76, _⟩ => ⟨S640000x1, .i32⟩
  | .hbm, ⟨77, _⟩ => ⟨S40000x128, .f32⟩
  | .hbm, ⟨78, _⟩ => ⟨S40000x128, .f32⟩
  | .hbm, ⟨79, _⟩ => ⟨S40000x128, .f32⟩
  | .hbm, ⟨80, _⟩ => ⟨S1x128, .f32⟩
  | .hbm, ⟨81, _⟩ => ⟨S128, .f32⟩
  | .hbm, ⟨82, _⟩ => ⟨S1x128, .f32⟩
  | .hbm, ⟨83, _⟩ => ⟨S1x128x128, .f32⟩
  | .hbm, ⟨84, _⟩ => ⟨S128x128, .f32⟩
  | .hbm, ⟨85, _⟩ => ⟨S1x128x128, .f32⟩
  | .hbm, ⟨86, _⟩ => ⟨S128x128, .f32⟩
  | .hbm, ⟨87, _⟩ => ⟨S40000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S_S40000x128 : S_.BroadcastsInDim S40000x128 (![] : Fin 0 → Fin S40000x128.rank)
  bcast_S40000x1_S40000x128_0_1 : S40000x1.BroadcastsInDim S40000x128 (![0, 1] : Fin 2 → Fin S40000x128.rank)
  slices_S3x128_S1x128_0_0 : S3x128.Slices ![0, 0] S1x128
  shapeCasts_S1x128_S128 : S1x128.ShapeCasts S128
  shapeCasts_S128_S1x128 : S128.ShapeCasts S1x128
  slices_S3x128x128_S1x128x128_0_0_0 : S3x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S40000x128.size a
  hwx0_1 : ∀ i : grid0.Coords, EltTy.bits .f32 = 32 ∨ (Rect.block (s := S40000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S40000x128.size a
  hwx0_5 : ∀ i : grid0.Coords, EltTy.bits .f32 = 32 ∨ (Rect.block (s := S40000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S40000x128.size a
  hwx1_1 : ∀ i : grid1.Coords, EltTy.bits .f32 = 32 ∨ (Rect.block (s := S40000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S40000x128.size a
  hwx1_5 : ∀ i : grid1.Coords, EltTy.bits .f32 = 32 ∨ (Rect.block (s := S40000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S40000x128.size a
  hwx2_0 : ∀ i : grid2.Coords, EltTy.bits .f32 = 32 ∨ (Rect.block (s := S40000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S40000x128.size a
  hwx2_1 : ∀ i : grid2.Coords, EltTy.bits .f32 = 32 ∨ (Rect.block (s := S40000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S40000x128.size a
  hwx2_5 : ∀ i : grid2.Coords, EltTy.bits .f32 = 32 ∨ (Rect.block (s := S40000x128) S2000x128.size (cc2_transform_5 i) (hinb2_5 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S40000x128 : Shape := ⟨2, ![40000, 128]⟩
abbrev S640000 : Shape := ⟨1, ![640000]⟩
abbrev S3x128x128 : Shape := ⟨3, ![3, 128, 128]⟩
abbrev S3x128 : Shape := ⟨2, ![3, 128]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x128 : Shape := ⟨2, ![640000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 106
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S3x128x128, .f32⟩
  | .hbm, ⟨4, _⟩ => ⟨S3x128x128, .f32⟩
  | .hbm, ⟨5, _⟩ => ⟨S3x128, .f32⟩
  | .hbm, ⟨6, _⟩ => ⟨S_, .f32⟩
  | .hbm, ⟨7, _⟩ => ⟨S640000, .f32⟩
  | .hbm, ⟨8, _⟩ => ⟨S_, .f32⟩
  | .hbm, ⟨9, _⟩ => ⟨S40000, .f32⟩
  | .hbm, ⟨10, _⟩ => ⟨S640000x1, .i32⟩
  | .hbm, ⟨11, _⟩ => ⟨S40000, .f32⟩
  | .hbm, ⟨12, _⟩ => ⟨S_, .f32⟩
  | .hbm, ⟨13, _⟩ => ⟨S40000, .f32⟩
  | .hbm, ⟨14, _⟩ => ⟨S40000, .f32⟩
  | .hbm, ⟨15, _⟩ => ⟨S_, .f32⟩
  | .hbm, ⟨16, _⟩ => ⟨S40000, .f32⟩
  | .hbm, ⟨17, _⟩ => ⟨S40000, .f32⟩
  | .hbm, ⟨18, _⟩ => ⟨S40000x1, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .f32⟩
  | .hbm, ⟨29, _⟩ => ⟨S40000x128, .f32⟩
  | .hbm, ⟨30, _⟩ => ⟨S640000x1, .i32⟩
  | .hbm, ⟨31, _⟩ => ⟨S40000x128, .f32⟩
  | .hbm, ⟨32, _⟩ => ⟨S40000x128, .f32⟩
  | .hbm, ⟨33, _⟩ => ⟨S40000x128, .f32⟩
  | .hbm, ⟨34, _⟩ => ⟨S1x128x128, .f32⟩
  | .hbm, ⟨35, _⟩ => ⟨S128x128, .f32⟩
  | .hbm, ⟨36, _⟩ => ⟨S40000x128, .f32⟩
  | .hbm, ⟨37, _⟩ => ⟨S1x128x128, .f32⟩
  | .hbm, ⟨38, _⟩ => ⟨S128x128, .f32⟩
  | .hbm, ⟨39, _⟩ => ⟨S40000x128, .f32⟩
  | .hbm, ⟨40, _⟩ => ⟨S40000x128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S40000x128, .f32⟩
  | .hbm, ⟨45, _⟩ => ⟨S40000x128, .f32⟩
  | .hbm, ⟨46, _⟩ => ⟨S_, .f32⟩
  | .hbm, ⟨47, _⟩ => ⟨S40000x128, .f32⟩
  | .hbm, ⟨48, _⟩ => ⟨S40000x128, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .f32⟩
  | .hbm, ⟨58, _⟩ => ⟨S_, .f32⟩
  | .hbm, ⟨59, _⟩ => ⟨S40000x128, .f32⟩
  | .hbm, ⟨60, _⟩ => ⟨S640000x1, .i32⟩
  | .hbm, ⟨61, _⟩ => ⟨S40000x128, .f32⟩
  | .hbm, ⟨62, _⟩ => ⟨S40000x128, .f32⟩
  | .hbm, ⟨63, _⟩ => ⟨S40000x128, .f32⟩
  | .hbm, ⟨64, _⟩ => ⟨S1x128x128, .f32⟩
  | .hbm, ⟨65, _⟩ => ⟨S128x128, .f32⟩
  | .hbm, ⟨66, _⟩ => ⟨S40000x128, .f32⟩
  | .hbm, ⟨67, _⟩ => ⟨S1x128x128, .f32⟩
  | .hbm, ⟨68, _⟩ => ⟨S128x128, .f32⟩
  | .hbm, ⟨69, _⟩ => ⟨S40000x128, .f32⟩
  | .hbm, ⟨70, _⟩ => ⟨S40000x128, .f32⟩
  | .hbm, ⟨71, _⟩ => ⟨S1x128, .f32⟩
  | .hbm, ⟨72, _⟩ => ⟨S128, .f32⟩
  | .hbm, ⟨73, _⟩ => ⟨S1x128, .f32⟩
  | .hbm, ⟨74, _⟩ => ⟨S40000x128, .f32⟩
  | .hbm, ⟨75, _⟩ => ⟨S40000x128, .f32⟩
  | .hbm, ⟨76, _⟩ => ⟨S_, .f32⟩
  | .hbm, ⟨77, _⟩ => ⟨S40000x128, .f32⟩
  | .hbm, ⟨78, _⟩ => ⟨S40000x128, .f32⟩
  | .hbm, ⟨79, _⟩ => ⟨S_, .i32⟩
  | .hbm, ⟨80, _⟩ => ⟨S640000, .i32⟩
  | .hbm, ⟨81, _⟩ => ⟨S640000, .i1⟩
  | .hbm, ⟨82, _⟩ => ⟨S_, .i32⟩
  | .hbm, ⟨83, _⟩ => ⟨S640000, .i32⟩
  | .hbm, ⟨84, _⟩ => ⟨S640000, .i32⟩
  | .hbm, ⟨85, _⟩ => ⟨S640000, .i32⟩
  | .hbm, ⟨86, _⟩ => ⟨S640000x1, .i32⟩
  | .hbm, ⟨87, _⟩ => ⟨S640000x128, .f32⟩
  | .hbm, ⟨88, _⟩ => ⟨S_, .f32⟩
  | .hbm, ⟨89, _⟩ => ⟨S40000x128, .f32⟩
  | .hbm, ⟨90, _⟩ => ⟨S640000x1, .i32⟩
  | .hbm, ⟨91, _⟩ => ⟨S40000x128, .f32⟩
  | .hbm, ⟨92, _⟩ => ⟨S40000x128, .f32⟩
  | .hbm, ⟨93, _⟩ => ⟨S40000x128, .f32⟩
  | .hbm, ⟨94, _⟩ => ⟨S1x128x128, .f32⟩
  | .hbm, ⟨95, _⟩ => ⟨S128x128, .f32⟩
  | .hbm, ⟨96, _⟩ => ⟨S40000x128, .f32⟩
  | .hbm, ⟨97, _⟩ => ⟨S1x128x128, .f32⟩
  | .hbm, ⟨98, _⟩ => ⟨S128x128, .f32⟩
  | .hbm, ⟨99, _⟩ => ⟨S40000x128, .f32⟩
  | .hbm, ⟨100, _⟩ => ⟨S40000x128, .f32⟩
  | .hbm, ⟨101, _⟩ => ⟨S1x128, .f32⟩
  | .hbm, ⟨102, _⟩ => ⟨S128, .f32⟩
  | .hbm, ⟨103, _⟩ => ⟨S1x128, .f32⟩
  | .hbm, ⟨104, _⟩ => ⟨S40000x128, .f32⟩
  | .hbm, ⟨105, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_cst : Ref sig .tc := ⟨.hbm, 46, rfl⟩
abbrev main_call0_v0 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_call1_cst : Ref sig .tc := ⟨.hbm, 76, rfl⟩
abbrev main_call1_v0 : Ref sig .tc := ⟨.hbm, 77, rfl⟩
abbrev main_v58 : Ref sig .tc := ⟨.hbm, 78, rfl⟩
abbrev main_c_8 : Ref sig .tc := ⟨.hbm, 79, rfl⟩
abbrev main_v59 : Ref sig .tc := ⟨.hbm, 80, rfl⟩
abbrev main_v60 : Ref sig .tc := ⟨.hbm, 81, rfl⟩
abbrev main_c_9 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S_S40000x128 : S_.BroadcastsInDim S40000x128 (![] : Fin 0 → Fin S40000x128.rank)
  bcast_S40000x1_S40000x128_0_1 : S40000x1.BroadcastsInDim S40000x128 (![0, 1] : Fin 2 → Fin S40000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.KernelRun.lean ====
/-
  The idealized kernel's run with its RESULT named.

  The program is three pallas_calls among stretches of host operations. Its buffer contents at each boundary are a fold
  from the launch memory: a host stretch applies its operations, a pallas_call replaces each of its arrays by what its
  write-backs leave and keeps every other buffer. Every weakly fair execution terminates with every unscoped buffer at
  the last boundary's contents; read at the result buffer this names the result, and read at the argument buffers it
  says the arguments end as launched.
-/
import proofs.«104616_j28398323761564_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_value : θ_run defs (onTc (τ := τ) (main (F := F))) ⟨m, fun _ => 0, ρ⟩ (fun r => ∀ c : Dev nD,
      r.2.mem ((c.tc : Thread nD τ).loc main_v68) = W6 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v68 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Run

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.LayerSpec.lean ====
/-
  One dense graph-convolution layer, entry by entry, over the extended reals.

  For node features `h`, aggregated neighbour features `a`, two square weight matrices `ws`, `wn` and a bias vector `b`,
  entry `(p, q)` of the layer is

      (Σ_k h[p, k] · ws[k, q]  +  Σ_k a[p, k] · wn[k, q])  +  b[q],

  optionally followed by the rectifier `x ↦ max x 0`. The two sums, their sum and the bias are grouped exactly so in
  both programs, so no law of the extended reals beyond reading each operation at an entry is needed, and nothing here
  asks the inputs to be finite.

  Entry `(p, q)` depends on `h` and `a` only through their row `p` (`denseAt_congr`): this is what lets a block of rows
  of the result be computed from the same block of rows of the two feature arrays.
-/
import Idealize.ShloMosaic.PureOps.Ideal.Laws
import Idealize.ShloMosaic.Lib.ValueIdx

noncomputable section

open scoped BigOperators

namespace Cert.Sage

open Idealize.ShloMosaic Idealize.ShloMosaic.ValueIdx

/-- Entry `(p, q)` of the layer before the activation. -/
def denseAt {N : Nat} (h a : (⟨2, ![N, 128]⟩ : Shape).Idx → EReal) (ws wn : (⟨2, ![128, 128]⟩ : Shape).Idx → EReal)
    (b : Fin 128 → EReal) (p : Fin N) (q : Fin 128) : EReal :=
  (∑ k : Fin 128, h (ix2 p k) * ws (ix2 k q) + ∑ k : Fin 128, a (ix2 p k) * wn (ix2 k q)) + b q

/-- The activation: the rectifier when `relu`, nothing otherwise. -/
def act (relu : Bool) (x : EReal) : EReal := if relu = true then max x 0 else x

theorem act_true (x : EReal) : act true x = max x 0 := if_pos rfl
theorem act_false (x : EReal) : act false x = x := if_neg (by decide)

/-- The layer as one function of the whole arrays. -/
def dense (relu : Bool) {N : Nat} (h a : (⟨2, ![N, 128]⟩ : Shape).Idx → EReal)
    (ws wn : (⟨2, ![128, 128]⟩ : Shape).Idx → EReal) (b : Fin 128 → EReal) : (⟨2, ![N, 128]⟩ : Shape).Idx → EReal :=
  fun i => act relu (denseAt h a ws wn b (i 0) (i 1))

theorem dense_ix2 (relu : Bool) {N : Nat} (h a : (⟨2, ![N, 128]⟩ : Shape).Idx → EReal)
    (ws wn : (⟨2, ![128, 128]⟩ : Shape).Idx → EReal) (b : Fin 128 → EReal) (p : Fin N) (q : Fin 128) :
    dense relu h a ws wn b (ix2 p q) = act relu (denseAt h a ws wn b p q) := rfl

/-- An entry of the layer reads the two feature arrays only along its own row. -/
theorem denseAt_congr {N M : Nat} (h a : (⟨2, ![N, 128]⟩ : Shape).Idx → EReal) (h' a' : (⟨2, ![M, 128]⟩ : Shape).Idx → EReal)
    (ws wn : (⟨2, ![128, 128]⟩ : Shape).Idx → EReal) (b : Fin 128 → EReal) (p : Fin N) (p' : Fin M) (q : Fin 128)
    (hh : ∀ k : Fin 128, h (ix2 p k) = h' (ix2 p' k)) (ha : ∀ k : Fin 128, a (ix2 p k) = a' (ix2 p' k)) :
    denseAt h a ws wn b p q = denseAt h' a' ws wn b p' q := by
  unfold denseAt
  rw [Finset.sum_congr rfl fun k _ => congrArg (· * ws (ix2 k q)) (hh k),
    Finset.sum_congr rfl fun k _ => congrArg (· * wn (ix2 k q)) (ha k)]

end Cert.Sage

end
-- ==== Proof.Payload.lean ====
/-
  What each of the three kernel bodies stores, read at one entry of its block at the ideal values.

  A body loads a block of 2000 rows of the node features `x0` and of the aggregated neighbour features `x1`, the two
  128×128 weight matrices `x2`, `x3` and the bias row `x4`, rounds the four matrices to bf16 (the identity at the ideal
  values), multiplies rows by columns into a zero accumulator twice, adds the two products, adds the bias row
  broadcast down the block, and (first two layers) takes the maximum with zero. Entry `(p, q)` of what it stores is
  therefore the dense layer's entry `(p, q)` of the loaded blocks.
-/
import proofs.«104616_j28398323761564_1_alg».proof.Proof.Gen.KernelIdeal.Skeleton
import proofs.«104616_j28398323761564_1_alg».proof.Proof.LibMatmulEntry
import proofs.«104616_j28398323761564_1_alg».proof.Proof.LayerSpec
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx

/-- The bias row read as a function of the column. -/
abbrev rowOf (x4 : Vec Ideal S1x128 .f32) : Fin 128 → EReal := fun q => x4 (ix2 (0 : Fin 1) q)

/-- The two products, their sum and the bias, at entry `(p, q)`: the part the three bodies share. -/
theorem pre_apply (x0 x1 : FVec Ideal S2000x128 .f32) (x2 x3 : FVec Ideal S128x128 .f32) (x4 : FVec Ideal S1x128 .f32)
    (p : Fin 2000) (q : Fin 128) :
    FloatOps.addf (FloatOps.addf
        (FloatOps.matmul dot_S2000x128_S128x128_S2000x128_1_0_0_1_n_n none (truncf .bf16 x0 bitsLt_bf16_f32) (truncf .bf16 x2 bitsLt_bf16_f32)
          (constant (F := Ideal) S2000x128 .f32 0x00000000#32) (ix2 p q))
        (FloatOps.matmul dot_S2000x128_S128x128_S2000x128_1_0_0_1_n_n none (truncf .bf16 x1 bitsLt_bf16_f32) (truncf .bf16 x3 bitsLt_bf16_f32)
          (constant (F := Ideal) S2000x128 .f32 0x00000000#32) (ix2 p q)))
      (broadcastTo S2000x128 x4 broadcasts_S1x128_S2000x128 (ix2 p q))
    = Sage.denseAt x0 x1 x2 x3 (rowOf x4) p q := by
  rw [Ideal.matmul_rows_cols dot_S2000x128_S128x128_S2000x128_1_0_0_1_n_n rfl rfl rfl rfl rfl rfl,
    Ideal.matmul_rows_cols dot_S2000x128_S128x128_S2000x128_1_0_0_1_n_n rfl rfl rfl rfl rfl rfl,
    broadcastTo_1b_ab_apply]
  rfl

/-- Layer 0's stored value at entry `(p, q)`. -/
theorem pay0_apply (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q) = max (Sage.denseAt x0 x1 x2 x3 (rowOf x4) p q) 0 := by
  unfold k0_pay1
  simp only [shapeCast_self]
  refine (congrArg₂ max (pre_apply x0 x1 x2 x3 x4 p q) ?_)
  exact Ideal.ofBits_zero_f32

/-- Layer 1's stored value at entry `(p, q)`. -/
theorem pay1_apply (x0 x1 : Vec Ideal S2000x128 .f32) (x2 x3 : Vec Ideal S128x128 .f32) (x4 : Vec Ideal S1x128 .f32)
    (p : Fin 2000) (q : Fin 128) :
    k1_pay1 (F := Ideal) x0 x1 x2 x3 x4 (ix2 p q) = max (Sage.denseAt x0 x1 x2 x3 (rowOf x4) p q) 0 := by
  unfold k1_pay1
  simp only [shapeCast_self]
  refine (congrArg₂ max (pre_apply x0 x1 x2 x3 x4 p q) ?_)
  exact Ideal.ofBits_zero_f32

/-- Layer 2's stored value at entry `(p, q)`: no activation. -/
theorem pay2_apply (x0 x1 : Vec Ideal S2000x128 .f32) (x2 x3 : Vec Ideal S128x128 .f32) (x4 : Vec Ideal S1x128 .f32)
    (p : Fin 2000) (q : Fin 128) :
    k2_pay1 (F := Ideal) x0 x1 x2 x3 x4 (ix2 p q) = Sage.denseAt x0 x1 x2 x3 (rowOf x4) p q := by
  unfold k2_pay1
  simp only [shapeCast_self]
  exact pre_apply x0 x1 x2 x3 x4 p q

end Cert.KernelIdeal.Pay

end
-- ==== Proof.Region0.lean ====
/-
  Pallas call 0, from blocks to the whole array.

  The grid has 20 points; point `t` loads rows `2000·t … 2000·t + 1999` of the node features and of the aggregated
  neighbour features, the two weight matrices and the bias row whole, and writes back rows `2000·t … 2000·t + 1999` of
  the result. An entry of the dense layer reads the feature arrays only along its own row, so what point `t` writes
  back is block `t` of ONE function of the arrays as the call finds them — the dense layer with the rectifier —
  and the 20 blocks tile the result: the result array ends holding that function, for ANY contents `V` at the call's entry.
-/
import proofs.«104616_j28398323761564_1_alg».proof.Proof.Gen.KernelIdeal.Frame
import proofs.«104616_j28398323761564_1_alg».proof.Proof.Payload
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The result array as one function of the arrays the call finds. -/
abbrev G (c : Dev nD) : S40000x128.Idx → EReal :=
  Sage.dense true (V c main_arg0 : S40000x128.Idx → EReal) (V c main_v20 : S40000x128.Idx → EReal)
    (V c main_v25 : S128x128.Idx → EReal) (V c main_v27 : S128x128.Idx → EReal) (Pay.rowOf (V c main_v23))

/-- The printed index maps over the grid: the row-blocked windows move with the point, the others stay at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The node-feature block at point `t` is rows `2000·t …` of the array. -/
theorem iblk_rows0 (c : Dev nD) (t : Fin cfg0.N) (p : Fin 2000) (k : Fin 128) (P : Fin 40000) (hP : P.val = t.val * 2000 + p.val) :
    (iblk0 V c 0 t : Vec Ideal S2000x128 .f32) (ix2 p k) = (V c main_arg0 : S40000x128.Idx → EReal) (ix2 P k) := by
  obtain ⟨e0, e1, -⟩ := idx_facts t
  unfold iblk0
  rw [View.read_apply]
  show (V c main_arg0 : S40000x128.Idx → EReal) _ = (V c main_arg0 : S40000x128.Idx → EReal) _
  refine congrArg _ (funext fun a => Fin.ext ?_)
  match a with
  | ⟨0, _⟩ => show win0_0.index t (0 : Fin 2) * 2000 + 1 * p.val = P.val; omega
  | ⟨1, _⟩ => show win0_0.index t (1 : Fin 2) * 128 + 1 * k.val = k.val; omega

/-- The aggregated-feature block at point `t` is rows `2000·t …` of the array. -/
theorem iblk_rows1 (c : Dev nD) (t : Fin cfg0.N) (p : Fin 2000) (k : Fin 128) (P : Fin 40000) (hP : P.val = t.val * 2000 + p.val) :
    (iblk0 V c 1 t : Vec Ideal S2000x128 .f32) (ix2 p k) = (V c main_v20 : S40000x128.Idx → EReal) (ix2 P k) := by
  obtain ⟨-, -, e0, e1, -⟩ := idx_facts t
  unfold iblk0
  rw [View.read_apply]
  show (V c main_v20 : S40000x128.Idx → EReal) _ = (V c main_v20 : S40000x128.Idx → EReal) _
  refine congrArg _ (funext fun a => Fin.ext ?_)
  match a with
  | ⟨0, _⟩ => show win0_1.index t (0 : Fin 2) * 2000 + 1 * p.val = P.val; omega
  | ⟨1, _⟩ => show win0_1.index t (1 : Fin 2) * 128 + 1 * k.val = k.val; omega

/-- The first weight matrix is loaded whole at every point. -/
theorem iblk_whole2 (c : Dev nD) (t : Fin cfg0.N) :
    (iblk0 V c 2 t : Vec Ideal S128x128 .f32) = (V c main_v25 : S128x128.Idx → EReal) := by
  obtain ⟨-, -, -, -, e0, e1, -⟩ := idx_facts t
  funext y
  unfold iblk0
  rw [View.read_apply]
  show (V c main_v25 : S128x128.Idx → EReal) _ = (V c main_v25 : S128x128.Idx → EReal) y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The second weight matrix is loaded whole at every point. -/
theorem iblk_whole3 (c : Dev nD) (t : Fin cfg0.N) :
    (iblk0 V c 3 t : Vec Ideal S128x128 .f32) = (V c main_v27 : S128x128.Idx → EReal) := by
  obtain ⟨-, -, -, -, -, -, e0, e1, -⟩ := idx_facts t
  funext y
  unfold iblk0
  rw [View.read_apply]
  show (V c main_v27 : S128x128.Idx → EReal) _ = (V c main_v27 : S128x128.Idx → EReal) y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias row is loaded whole at every point. -/
theorem iblk_whole4 (c : Dev nD) (t : Fin cfg0.N) :
    (iblk0 V c 4 t : Vec Ideal S1x128 .f32) = (V c main_v23 : S1x128.Idx → EReal) := by
  obtain ⟨-, -, -, -, -, -, -, -, e0, e1, -⟩ := idx_facts t
  funext y
  unfold iblk0
  rw [View.read_apply]
  show (V c main_v23 : S1x128.Idx → EReal) _ = (V c main_v23 : S1x128.Idx → EReal) y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- WHAT POINT `t` WRITES BACK is block `t` of the dense layer of the arrays as the call finds them. -/
theorem flushed_eq (c : Dev nD) (t : Fin cfg0.N) :
    (dat0 V c).flushed 5 t = ((cfg0.win 5).blk t).view.read (Elt Ideal) (G V c) := by
  have hN : t.val < 20 := by have h := t.isLt; have e : cfg0.N = 20 := N_0; omega
  obtain ⟨-, -, -, -, -, -, -, -, -, -, e0, e1⟩ := idx_facts t
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  have hp : p.val < 2000 := p.isLt
  let P : Fin 40000 := ⟨t.val * 2000 + p.val, by omega⟩
  have hemb : ((cfg0.win 5).blk t).view.emb (ix2 p q) = (ix2 P q : S40000x128.Idx) := by
    funext a
    apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  show k0_pay1 (F := Ideal) (iblk0 V c 0 t) (iblk0 V c 1 t) (iblk0 V c 2 t) (iblk0 V c 3 t) (iblk0 V c 4 t) (ix2 p q)
    = G V c (((cfg0.win 5).blk t).view.emb (ix2 p q))
  rw [hemb]
  refine (Pay.pay0_apply (iblk0 V c 0 t) (iblk0 V c 1 t) (iblk0 V c 2 t) (iblk0 V c 3 t) (iblk0 V c 4 t) p q).trans ?_
  show _ = Sage.act true (Sage.denseAt _ _ _ _ _ P q)
  rw [Sage.act_true, iblk_whole2 V c t, iblk_whole3 V c t, iblk_whole4 V c t]
  refine congrArg (fun z => max z 0) ?_
  exact Sage.denseAt_congr _ _ _ _ _ _ _ p P q (fun k => iblk_rows0 V c t p k P rfl) (fun k => iblk_rows1 V c t p k P rfl)

/-- An index of the result array is in point `t`'s block iff its row is among the block's 2000 rows. -/
theorem mem_blk (t : Fin cfg0.N) (i : S40000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v28).slice (win0_5.rect t)).set ↔ _
  rw [View.set_slice_whole, Rect.mem_set_unit]
  exact Iff.rfl

/-- THE RESULT ARRAY after the call: the dense layer of the arrays as the call finds them. -/
theorem final (c : Dev nD) : (dat0 V c).arrAt 5 cfg0.N = G V c :=
  (dat0 V c).arrAt_eq_of_cover 5 (G V c) (fun t _ => flushed_eq V c t) fun i => by
    have hi0 : (i 0).val < 40000 := (i 0).isLt
    have hi1 : (i 1).val < 128 := (i 1).isLt
    have hN : cfg0.N = 20 := N_0
    let t : Fin cfg0.N := ⟨(i 0).val / 2000, by rw [hN]; omega⟩
    obtain ⟨-, -, -, -, -, -, -, -, -, -, e0, e1⟩ := idx_facts t
    have ht : t.val = (i 0).val / 2000 := rfl
    refine ⟨t, flush0_5 t, ?_⟩
    rw [mem_blk]
    intro a
    match a with
    | ⟨0, _⟩ => show win0_5.index t (0 : Fin 2) * 2000 ≤ (i 0).val ∧ (i 0).val < win0_5.index t (0 : Fin 2) * 2000 + 2000; omega
    | ⟨1, _⟩ => show win0_5.index t (1 : Fin 2) * 128 ≤ (i 1).val ∧ (i 1).val < win0_5.index t (1 : Fin 2) * 128 + 128; omega

end Cert.KernelIdeal.Reg0

end
-- ==== Proof.Region1.lean ====
/-
  Pallas call 1, from blocks to the whole array.

  The grid has 20 points; point `t` loads rows `2000·t … 2000·t + 1999` of the node features and of the aggregated
  neighbour features, the two weight matrices and the bias row whole, and writes back rows `2000·t … 2000·t + 1999` of
  the result. An entry of the dense layer reads the feature arrays only along its own row, so what point `t` writes
  back is block `t` of ONE function of the arrays as the call finds them — the dense layer with the rectifier —
  and the 20 blocks tile the result: the result array ends holding that function, for ANY contents `V` at the call's entry.
-/
import proofs.«104616_j28398323761564_1_alg».proof.Proof.Gen.KernelIdeal.Frame
import proofs.«104616_j28398323761564_1_alg».proof.Proof.Payload
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The result array as one function of the arrays the call finds. -/
abbrev G (c : Dev nD) : S40000x128.Idx → EReal :=
  Sage.dense true (V c main_v28 : S40000x128.Idx → EReal) (V c main_v40 : S40000x128.Idx → EReal)
    (V c main_v45 : S128x128.Idx → EReal) (V c main_v47 : S128x128.Idx → EReal) (Pay.rowOf (V c main_v43))

/-- The printed index maps over the grid: the row-blocked windows move with the point, the others stay at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The node-feature block at point `t` is rows `2000·t …` of the array. -/
theorem iblk_rows0 (c : Dev nD) (t : Fin cfg1.N) (p : Fin 2000) (k : Fin 128) (P : Fin 40000) (hP : P.val = t.val * 2000 + p.val) :
    (iblk1 V c 0 t : Vec Ideal S2000x128 .f32) (ix2 p k) = (V c main_v28 : S40000x128.Idx → EReal) (ix2 P k) := by
  obtain ⟨e0, e1, -⟩ := idx_facts t
  unfold iblk1
  rw [View.read_apply]
  show (V c main_v28 : S40000x128.Idx → EReal) _ = (V c main_v28 : S40000x128.Idx → EReal) _
  refine congrArg _ (funext fun a => Fin.ext ?_)
  match a with
  | ⟨0, _⟩ => show win1_0.index t (0 : Fin 2) * 2000 + 1 * p.val = P.val; omega
  | ⟨1, _⟩ => show win1_0.index t (1 : Fin 2) * 128 + 1 * k.val = k.val; omega

/-- The aggregated-feature block at point `t` is rows `2000·t …` of the array. -/
theorem iblk_rows1 (c : Dev nD) (t : Fin cfg1.N) (p : Fin 2000) (k : Fin 128) (P : Fin 40000) (hP : P.val = t.val * 2000 + p.val) :
    (iblk1 V c 1 t : Vec Ideal S2000x128 .f32) (ix2 p k) = (V c main_v40 : S40000x128.Idx → EReal) (ix2 P k) := by
  obtain ⟨-, -, e0, e1, -⟩ := idx_facts t
  unfold iblk1
  rw [View.read_apply]
  show (V c main_v40 : S40000x128.Idx → EReal) _ = (V c main_v40 : S40000x128.Idx → EReal) _
  refine congrArg _ (funext fun a => Fin.ext ?_)
  match a with
  | ⟨0, _⟩ => show win1_1.index t (0 : Fin 2) * 2000 + 1 * p.val = P.val; omega
  | ⟨1, _⟩ => show win1_1.index t (1 : Fin 2) * 128 + 1 * k.val = k.val; omega

/-- The first weight matrix is loaded whole at every point. -/
theorem iblk_whole2 (c : Dev nD) (t : Fin cfg1.N) :
    (iblk1 V c 2 t : Vec Ideal S128x128 .f32) = (V c main_v45 : S128x128.Idx → EReal) := by
  obtain ⟨-, -, -, -, e0, e1, -⟩ := idx_facts t
  funext y
  unfold iblk1
  rw [View.read_apply]
  show (V c main_v45 : S128x128.Idx → EReal) _ = (V c main_v45 : S128x128.Idx → EReal) y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The second weight matrix is loaded whole at every point. -/
theorem iblk_whole3 (c : Dev nD) (t : Fin cfg1.N) :
    (iblk1 V c 3 t : Vec Ideal S128x128 .f32) = (V c main_v47 : S128x128.Idx → EReal) := by
  obtain ⟨-, -, -, -, -, -, e0, e1, -⟩ := idx_facts t
  funext y
  unfold iblk1
  rw [View.read_apply]
  show (V c main_v47 : S128x128.Idx → EReal) _ = (V c main_v47 : S128x128.Idx → EReal) y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias row is loaded whole at every point. -/
theorem iblk_whole4 (c : Dev nD) (t : Fin cfg1.N) :
    (iblk1 V c 4 t : Vec Ideal S1x128 .f32) = (V c main_v43 : S1x128.Idx → EReal) := by
  obtain ⟨-, -, -, -, -, -, -, -, e0, e1, -⟩ := idx_facts t
  funext y
  unfold iblk1
  rw [View.read_apply]
  show (V c main_v43 : S1x128.Idx → EReal) _ = (V c main_v43 : S1x128.Idx → EReal) y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- WHAT POINT `t` WRITES BACK is block `t` of the dense layer of the arrays as the call finds them. -/
theorem flushed_eq (c : Dev nD) (t : Fin cfg1.N) :
    (dat1 V c).flushed 5 t = ((cfg1.win 5).blk t).view.read (Elt Ideal) (G V c) := by
  have hN : t.val < 20 := by have h := t.isLt; have e : cfg1.N = 20 := N_1; omega
  obtain ⟨-, -, -, -, -, -, -, -, -, -, e0, e1⟩ := idx_facts t
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  have hp : p.val < 2000 := p.isLt
  let P : Fin 40000 := ⟨t.val * 2000 + p.val, by omega⟩
  have hemb : ((cfg1.win 5).blk t).view.emb (ix2 p q) = (ix2 P q : S40000x128.Idx) := by
    funext a
    apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  show k1_pay1 (F := Ideal) (iblk1 V c 0 t) (iblk1 V c 1 t) (iblk1 V c 2 t) (iblk1 V c 3 t) (iblk1 V c 4 t) (ix2 p q)
    = G V c (((cfg1.win 5).blk t).view.emb (ix2 p q))
  rw [hemb]
  refine (Pay.pay1_apply (iblk1 V c 0 t) (iblk1 V c 1 t) (iblk1 V c 2 t) (iblk1 V c 3 t) (iblk1 V c 4 t) p q).trans ?_
  show _ = Sage.act true (Sage.denseAt _ _ _ _ _ P q)
  rw [Sage.act_true, iblk_whole2 V c t, iblk_whole3 V c t, iblk_whole4 V c t]
  refine congrArg (fun z => max z 0) ?_
  exact Sage.denseAt_congr _ _ _ _ _ _ _ p P q (fun k => iblk_rows0 V c t p k P rfl) (fun k => iblk_rows1 V c t p k P rfl)

/-- An index of the result array is in point `t`'s block iff its row is among the block's 2000 rows. -/
theorem mem_blk (t : Fin cfg1.N) (i : S40000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v48).slice (win1_5.rect t)).set ↔ _
  rw [View.set_slice_whole, Rect.mem_set_unit]
  exact Iff.rfl

/-- THE RESULT ARRAY after the call: the dense layer of the arrays as the call finds them. -/
theorem final (c : Dev nD) : (dat1 V c).arrAt 5 cfg1.N = G V c :=
  (dat1 V c).arrAt_eq_of_cover 5 (G V c) (fun t _ => flushed_eq V c t) fun i => by
    have hi0 : (i 0).val < 40000 := (i 0).isLt
    have hi1 : (i 1).val < 128 := (i 1).isLt
    have hN : cfg1.N = 20 := N_1
    let t : Fin cfg1.N := ⟨(i 0).val / 2000, by rw [hN]; omega⟩
    obtain ⟨-, -, -, -, -, -, -, -, -, -, e0, e1⟩ := idx_facts t
    have ht : t.val = (i 0).val / 2000 := rfl
    refine ⟨t, flush1_5 t, ?_⟩
    rw [mem_blk]
    intro a
    match a with
    | ⟨0, _⟩ => show win1_5.index t (0 : Fin 2) * 2000 ≤ (i 0).val ∧ (i 0).val < win1_5.index t (0 : Fin 2) * 2000 + 2000; omega
    | ⟨1, _⟩ => show win1_5.index t (1 : Fin 2) * 128 ≤ (i 1).val ∧ (i 1).val < win1_5.index t (1 : Fin 2) * 128 + 128; omega

end Cert.KernelIdeal.Reg1

end
-- ==== Proof.Region2.lean ====
/-
  Pallas call 2, from blocks to the whole array.

  The grid has 20 points; point `t` loads rows `2000·t … 2000·t + 1999` of the node features and of the aggregated
  neighbour features, the two weight matrices and the bias row whole, and writes back rows `2000·t … 2000·t + 1999` of
  the result. An entry of the dense layer reads the feature arrays only along its own row, so what point `t` writes
  back is block `t` of ONE function of the arrays as the call finds them — the dense layer without activation —
  and the 20 blocks tile the result: the result array ends holding that function, for ANY contents `V` at the call's entry.
-/
import proofs.«104616_j28398323761564_1_alg».proof.Proof.Gen.KernelIdeal.Frame
import proofs.«104616_j28398323761564_1_alg».proof.Proof.Payload
import Idealize.ShloMosaic.Lib.Pipeline.Value

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The result array as one function of the arrays the call finds. -/
abbrev G (c : Dev nD) : S40000x128.Idx → EReal :=
  Sage.dense false (V c main_v48 : S40000x128.Idx → EReal) (V c main_v60 : S40000x128.Idx → EReal)
    (V c main_v65 : S128x128.Idx → EReal) (V c main_v67 : S128x128.Idx → EReal) (Pay.rowOf (V c main_v63))

/-- The printed index maps over the grid: the row-blocked windows move with the point, the others stay at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The node-feature block at point `t` is rows `2000·t …` of the array. -/
theorem iblk_rows0 (c : Dev nD) (t : Fin cfg2.N) (p : Fin 2000) (k : Fin 128) (P : Fin 40000) (hP : P.val = t.val * 2000 + p.val) :
    (iblk2 V c 0 t : Vec Ideal S2000x128 .f32) (ix2 p k) = (V c main_v48 : S40000x128.Idx → EReal) (ix2 P k) := by
  obtain ⟨e0, e1, -⟩ := idx_facts t
  unfold iblk2
  rw [View.read_apply]
  show (V c main_v48 : S40000x128.Idx → EReal) _ = (V c main_v48 : S40000x128.Idx → EReal) _
  refine congrArg _ (funext fun a => Fin.ext ?_)
  match a with
  | ⟨0, _⟩ => show win2_0.index t (0 : Fin 2) * 2000 + 1 * p.val = P.val; omega
  | ⟨1, _⟩ => show win2_0.index t (1 : Fin 2) * 128 + 1 * k.val = k.val; omega

/-- The aggregated-feature block at point `t` is rows `2000·t …` of the array. -/
theorem iblk_rows1 (c : Dev nD) (t : Fin cfg2.N) (p : Fin 2000) (k : Fin 128) (P : Fin 40000) (hP : P.val = t.val * 2000 + p.val) :
    (iblk2 V c 1 t : Vec Ideal S2000x128 .f32) (ix2 p k) = (V c main_v60 : S40000x128.Idx → EReal) (ix2 P k) := by
  obtain ⟨-, -, e0, e1, -⟩ := idx_facts t
  unfold iblk2
  rw [View.read_apply]
  show (V c main_v60 : S40000x128.Idx → EReal) _ = (V c main_v60 : S40000x128.Idx → EReal) _
  refine congrArg _ (funext fun a => Fin.ext ?_)
  match a with
  | ⟨0, _⟩ => show win2_1.index t (0 : Fin 2) * 2000 + 1 * p.val = P.val; omega
  | ⟨1, _⟩ => show win2_1.index t (1 : Fin 2) * 128 + 1 * k.val = k.val; omega

/-- The first weight matrix is loaded whole at every point. -/
theorem iblk_whole2 (c : Dev nD) (t : Fin cfg2.N) :
    (iblk2 V c 2 t : Vec Ideal S128x128 .f32) = (V c main_v65 : S128x128.Idx → EReal) := by
  obtain ⟨-, -, -, -, e0, e1, -⟩ := idx_facts t
  funext y
  unfold iblk2
  rw [View.read_apply]
  show (V c main_v65 : S128x128.Idx → EReal) _ = (V c main_v65 : S128x128.Idx → EReal) y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The second weight matrix is loaded whole at every point. -/
theorem iblk_whole3 (c : Dev nD) (t : Fin cfg2.N) :
    (iblk2 V c 3 t : Vec Ideal S128x128 .f32) = (V c main_v67 : S128x128.Idx → EReal) := by
  obtain ⟨-, -, -, -, -, -, e0, e1, -⟩ := idx_facts t
  funext y
  unfold iblk2
  rw [View.read_apply]
  show (V c main_v67 : S128x128.Idx → EReal) _ = (V c main_v67 : S128x128.Idx → EReal) y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The bias row is loaded whole at every point. -/
theorem iblk_whole4 (c : Dev nD) (t : Fin cfg2.N) :
    (iblk2 V c 4 t : Vec Ideal S1x128 .f32) = (V c main_v63 : S1x128.Idx → EReal) := by
  obtain ⟨-, -, -, -, -, -, -, -, e0, e1, -⟩ := idx_facts t
  funext y
  unfold iblk2
  rw [View.read_apply]
  show (V c main_v63 : S1x128.Idx → EReal) _ = (V c main_v63 : S1x128.Idx → EReal) y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- WHAT POINT `t` WRITES BACK is block `t` of the dense layer of the arrays as the call finds them. -/
theorem flushed_eq (c : Dev nD) (t : Fin cfg2.N) :
    (dat2 V c).flushed 5 t = ((cfg2.win 5).blk t).view.read (Elt Ideal) (G V c) := by
  have hN : t.val < 20 := by have h := t.isLt; have e : cfg2.N = 20 := N_2; omega
  obtain ⟨-, -, -, -, -, -, -, -, -, -, e0, e1⟩ := idx_facts t
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  have hp : p.val < 2000 := p.isLt
  let P : Fin 40000 := ⟨t.val * 2000 + p.val, by omega⟩
  have hemb : ((cfg2.win 5).blk t).view.emb (ix2 p q) = (ix2 P q : S40000x128.Idx) := by
    funext a
    apply Fin.ext
    match a with
    | ⟨0, _⟩ => show win2_5.index t (0 : Fin 2) * 2000 + 1 * p.val = t.val * 2000 + p.val; omega
    | ⟨1, _⟩ => show win2_5.index t (1 : Fin 2) * 128 + 1 * q.val = q.val; omega
  show k2_pay1 (F := Ideal) (iblk2 V c 0 t) (iblk2 V c 1 t) (iblk2 V c 2 t) (iblk2 V c 3 t) (iblk2 V c 4 t) (ix2 p q)
    = G V c (((cfg2.win 5).blk t).view.emb (ix2 p q))
  rw [hemb]
  refine (Pay.pay2_apply (iblk2 V c 0 t) (iblk2 V c 1 t) (iblk2 V c 2 t) (iblk2 V c 3 t) (iblk2 V c 4 t) p q).trans ?_
  show _ = Sage.act false (Sage.denseAt _ _ _ _ _ P q)
  rw [Sage.act_false, iblk_whole2 V c t, iblk_whole3 V c t, iblk_whole4 V c t]
  show Sage.denseAt _ _ _ _ _ p q = Sage.denseAt _ _ _ _ _ P q
  exact Sage.denseAt_congr _ _ _ _ _ _ _ p P q (fun k => iblk_rows0 V c t p k P rfl) (fun k => iblk_rows1 V c t p k P rfl)

/-- An index of the result array is in point `t`'s block iff its row is among the block's 2000 rows. -/
theorem mem_blk (t : Fin cfg2.N) (i : S40000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v68).slice (win2_5.rect t)).set ↔ _
  rw [View.set_slice_whole, Rect.mem_set_unit]
  exact Iff.rfl

/-- THE RESULT ARRAY after the call: the dense layer of the arrays as the call finds them. -/
theorem final (c : Dev nD) : (dat2 V c).arrAt 5 cfg2.N = G V c :=
  (dat2 V c).arrAt_eq_of_cover 5 (G V c) (fun t _ => flushed_eq V c t) fun i => by
    have hi0 : (i 0).val < 40000 := (i 0).isLt
    have hi1 : (i 1).val < 128 := (i 1).isLt
    have hN : cfg2.N = 20 := N_2
    let t : Fin cfg2.N := ⟨(i 0).val / 2000, by rw [hN]; omega⟩
    obtain ⟨-, -, -, -, -, -, -, -, -, -, e0, e1⟩ := idx_facts t
    have ht : t.val = (i 0).val / 2000 := rfl
    refine ⟨t, flush2_5 t, ?_⟩
    rw [mem_blk]
    intro a
    match a with
    | ⟨0, _⟩ => show win2_5.index t (0 : Fin 2) * 2000 ≤ (i 0).val ∧ (i 0).val < win2_5.index t (0 : Fin 2) * 2000 + 2000; omega
    | ⟨1, _⟩ => show win2_5.index t (1 : Fin 2) * 128 ≤ (i 1).val ∧ (i 1).val < win2_5.index t (1 : Fin 2) * 128 + 128; omega

end Cert.KernelIdeal.Reg2

end
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«104616_j28398323761564_1_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.RefLayers.lean ====
/-
  The reference, layer by layer.

  Each of its three layers is, in the host's operations, `dot_general(h, W_self) + dot_general(agg, W_neigh)`, plus the
  bias vector laid out as a row and broadcast down the rows, then (first two layers) the maximum with a zero splat.
  Read at an entry, the two products are plain sums over the 128 contracted positions and the broadcasts pick the bias
  at the entry's column, so each layer is the dense layer of LayerSpec, entry by entry.

  The neighbour aggregation (gather along `src`, scatter-add along `dst`, times the reciprocal clamped in-degree) is the
  same chain of host operations at every layer, applied to that layer's features: it is never opened, and is carried
  as ONE function of (features, src, dst) — the first layer's stage `val_main_v20` — applied to each layer's input.
-/
import proofs.«104616_j28398323761564_1_alg».proof.Proof.Gen.ReferenceIdeal.Read
import proofs.«104616_j28398323761564_1_alg».proof.Proof.LibDotGeneralEntry
import proofs.«104616_j28398323761564_1_alg».proof.Proof.LayerSpec
import Idealize.ShloMosaic.Lib.Pipeline.Value

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

/-- The bias vector laid out as a row and broadcast down the rows, read at an entry, is the bias at the column. -/
theorem bias_apply (bv : FVec Ideal S128 .f32) (p : Fin 40000) (q : Fin 128) :
    broadcastInDim S40000x128 ![0, 1] bcast_S1x128_S40000x128_0_1 (broadcastInDim S1x128 ![1] bcast_S128_S1x128_1 bv) (ix2 p q)
      = bv (ix1 q) :=
  (broadcastInDim_apply _ bcast_S1x128_S40000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans
  (broadcastInDim_apply _ bcast_S128_S1x128_1 bv (ix2 (0 : Fin 1) q) (ix1 q) (fun a => match a with
    | ⟨0, _⟩ => by show q.val = if (128 : Nat) = 1 then 0 else q.val; rw [if_neg (by decide)]))

/-- The zero splat read at an entry is zero. -/
theorem zero_apply (p : Fin 40000) (q : Fin 128) :
    broadcastInDim S40000x128 ![] bcast_S_S40000x128 (constant (F := Ideal) S_ .f32 0x00000000#32) (ix2 p q) = (0 : EReal) :=
  (broadcastInDim_apply _ bcast_S_S40000x128 _ (ix2 p q) ix0 (fun a => a.elim0)).trans Ideal.ofBits_zero_f32

/-- The two products, their sum and the bias, in the host's operations, at entry `(p, q)`. -/
theorem pre_apply (h a : FVec Ideal S40000x128 .f32) (ws wn : FVec Ideal S128x128 .f32)
    (bv : FVec Ideal S128 .f32) (p : Fin 40000) (q : Fin 128) :
    addf (addf (Host.dotGeneral dot_S40000x128_S128x128_S40000x128_1_0_0_1_n_n none h ws)
        (Host.dotGeneral dot_S40000x128_S128x128_S40000x128_1_0_0_1_n_n none a wn))
      (broadcastInDim S40000x128 ![0, 1] bcast_S1x128_S40000x128_0_1 (broadcastInDim S1x128 ![1] bcast_S128_S1x128_1 bv)) (ix2 p q)
    = Sage.denseAt h a ws wn (fun q => bv (ix1 q)) p q := by
  show (Host.dotGeneral dot_S40000x128_S128x128_S40000x128_1_0_0_1_n_n none h ws (ix2 p q)
      + Host.dotGeneral dot_S40000x128_S128x128_S40000x128_1_0_0_1_n_n none a wn (ix2 p q)) + _ = _
  simp only [Host.dotGeneral]
  rw [Ideal.dotGeneral_rows_cols dot_S40000x128_S128x128_S40000x128_1_0_0_1_n_n rfl rfl rfl rfl rfl rfl,
    Ideal.dotGeneral_rows_cols dot_S40000x128_S128x128_S40000x128_1_0_0_1_n_n rfl rfl rfl rfl rfl rfl, bias_apply]
  rfl

/-- The same followed by the maximum with the zero splat. -/
theorem relu_apply (h a : FVec Ideal S40000x128 .f32) (ws wn : FVec Ideal S128x128 .f32)
    (bv : FVec Ideal S128 .f32) (p : Fin 40000) (q : Fin 128) :
    maximumf (addf (addf (Host.dotGeneral dot_S40000x128_S128x128_S40000x128_1_0_0_1_n_n none h ws)
          (Host.dotGeneral dot_S40000x128_S128x128_S40000x128_1_0_0_1_n_n none a wn))
        (broadcastInDim S40000x128 ![0, 1] bcast_S1x128_S40000x128_0_1 (broadcastInDim S1x128 ![1] bcast_S128_S1x128_1 bv)))
      (broadcastInDim S40000x128 ![] bcast_S_S40000x128 (constant (F := Ideal) S_ .f32 0x00000000#32)) (ix2 p q)
    = max (Sage.denseAt h a ws wn (fun q => bv (ix1 q)) p q) 0 :=
  congrArg₂ max (pre_apply h a ws wn bv p q) (zero_apply p q)

variable (x0 : (⟨S40000x128, .f32⟩ : BufTy).Contents (Elt Ideal)) (x1 x2 : (⟨S640000, .i32⟩ : BufTy).Contents (Elt Ideal))
  (x3 x4 : (⟨S3x128x128, .f32⟩ : BufTy).Contents (Elt Ideal)) (x5 : (⟨S3x128, .f32⟩ : BufTy).Contents (Elt Ideal))

/-- Layer 0: the dense layer with the rectifier, of the node features and their aggregation. -/
theorem layer0 : val_main_v33 (F := Ideal) x0 x1 x2 x3 x4 x5
    = Sage.dense true x0 (val_main_v20 (F := Ideal) x0 x1 x2) (val_main_v22 (F := Ideal) x3) (val_main_v25 (F := Ideal) x4)
        (fun q => val_main_v29 (F := Ideal) x5 (ix1 q)) := by
  funext i
  obtain ⟨p, q, rfl⟩ : ∃ (p : Fin 40000) (q : Fin 128), i = ix2 p q := ⟨i 0, i 1, eq_ix2 i⟩
  rw [Sage.dense_ix2, Sage.act_true]
  exact relu_apply x0 (val_main_v20 (F := Ideal) x0 x1 x2) (val_main_v22 (F := Ideal) x3) (val_main_v25 (F := Ideal) x4) (val_main_v29 (F := Ideal) x5) p q

/-- The aggregation with the reciprocal clamped in-degree column supplied: the scatter-added gathered rows times that
    column broadcast along the features. With the column computed from `dst` it is the aggregation itself. -/
def aggWith {F : FTy → Type} [FloatOps F] (h : (⟨S40000x128, .f32⟩ : BufTy).Contents (Elt F)) (s d : (⟨S640000, .i32⟩ : BufTy).Contents (Elt F))
    (v8 : (⟨S40000x1, .f32⟩ : BufTy).Contents (Elt F)) : (⟨S40000x128, .f32⟩ : BufTy).Contents (Elt F) :=
  mulf (val_main_v18 (F := F) h s d) (broadcastInDim S40000x128 ![0, 1] bcast_S40000x1_S40000x128_0_1 v8)

theorem aggWith_eq {F : FTy → Type} [FloatOps F] (h : (⟨S40000x128, .f32⟩ : BufTy).Contents (Elt F)) (s d : (⟨S640000, .i32⟩ : BufTy).Contents (Elt F)) :
    aggWith h s d (val_main_v8 (F := F) d) = val_main_v20 (F := F) h s d := rfl

/-- Layer 1's aggregated features are the one aggregation function of layer 0's output. -/
theorem agg1 : val_main_v45 (F := Ideal) x0 x1 x2 x3 x4 x5 = val_main_v20 (F := Ideal) (val_main_v33 (F := Ideal) x0 x1 x2 x3 x4 x5) x1 x2 := rfl

/-- Layer 1. -/
theorem layer1 : val_main_v58 (F := Ideal) x0 x1 x2 x3 x4 x5
    = Sage.dense true (val_main_v33 (F := Ideal) x0 x1 x2 x3 x4 x5) (val_main_v45 (F := Ideal) x0 x1 x2 x3 x4 x5)
        (val_main_v47 (F := Ideal) x3) (val_main_v50 (F := Ideal) x4) (fun q => val_main_v54 (F := Ideal) x5 (ix1 q)) := by
  funext i
  obtain ⟨p, q, rfl⟩ : ∃ (p : Fin 40000) (q : Fin 128), i = ix2 p q := ⟨i 0, i 1, eq_ix2 i⟩
  rw [Sage.dense_ix2, Sage.act_true]
  exact relu_apply (val_main_v33 (F := Ideal) x0 x1 x2 x3 x4 x5) (val_main_v45 (F := Ideal) x0 x1 x2 x3 x4 x5)
    (val_main_v47 (F := Ideal) x3) (val_main_v50 (F := Ideal) x4) (val_main_v54 (F := Ideal) x5) p q

/-- Layer 2's aggregated features are the one aggregation function of layer 1's output. -/
theorem agg2 : val_main_v70 (F := Ideal) x0 x1 x2 x3 x4 x5 = val_main_v20 (F := Ideal) (val_main_v58 (F := Ideal) x0 x1 x2 x3 x4 x5) x1 x2 := rfl

/-- Layer 2: no activation. -/
theorem layer2 : val_main_v82 (F := Ideal) x0 x1 x2 x3 x4 x5
    = Sage.dense false (val_main_v58 (F := Ideal) x0 x1 x2 x3 x4 x5) (val_main_v70 (F := Ideal) x0 x1 x2 x3 x4 x5)
        (val_main_v72 (F := Ideal) x3) (val_main_v75 (F := Ideal) x4) (fun q => val_main_v79 (F := Ideal) x5 (ix1 q)) := by
  funext i
  obtain ⟨p, q, rfl⟩ : ∃ (p : Fin 40000) (q : Fin 128), i = ix2 p q := ⟨i 0, i 1, eq_ix2 i⟩
  rw [Sage.dense_ix2, Sage.act_false]
  exact pre_apply (val_main_v58 (F := Ideal) x0 x1 x2 x3 x4 x5) (val_main_v70 (F := Ideal) x0 x1 x2 x3 x4 x5)
    (val_main_v72 (F := Ideal) x3) (val_main_v75 (F := Ideal) x4) (val_main_v79 (F := Ideal) x5) p q

end Cert.ReferenceIdeal.RefValue

end
-- ==== Proof.KernelFold.lean ====
/-
  The idealized kernel's result, walked back through its program.

  The program alternates stretches of host operations with three pallas_calls. Stretch 0 computes the reciprocal
  clamped in-degree column, the aggregation of the input features and layer 0's slices of the weights and bias; each
  later stretch computes the aggregation of the previous call's result (reusing the in-degree column) and its layer's
  slices. A stretch leaves every buffer it does not write as it found it; a pallas_call replaces its result array by
  the dense layer of its five input arrays (Region0 … Region2) and leaves every other buffer.

  Read against the reference's stages, boundary by boundary: after call 0 the result buffer holds the reference's
  first hidden layer, after call 1 its second, after call 2 its output. The aggregation is the same function at every
  layer on both sides and is never opened.
-/
import proofs.«104616_j28398323761564_1_alg».proof.Proof.Gen.KernelIdeal.Frame
import proofs.«104616_j28398323761564_1_alg».proof.Proof.Gen.ReferenceIdeal.Read
import proofs.«104616_j28398323761564_1_alg».proof.Proof.Region0
import proofs.«104616_j28398323761564_1_alg».proof.Proof.Region1
import proofs.«104616_j28398323761564_1_alg».proof.Proof.Region2
import proofs.«104616_j28398323761564_1_alg».proof.Proof.RefLayers
import Idealize.ShloMosaic.Lib.StableHlo.Run
import Idealize.ShloMosaic.Lib.ValueLayout

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

/-- A vector laid out as a one-row matrix, read along the row, is the vector. -/
theorem row_of_cast (bv : FVec Ideal S128 .f32) :
    Pay.rowOf (shapeCast S1x128 bv shapeCasts_S128_S1x128) = fun q => bv (ix1 q) :=
  funext fun q => shapeCast_a_1a_apply bv shapeCasts_S128_S1x128 (0 : Fin 1) q

/-! ## The three stretches of host operations, over ANY contents they start from -/

section Stretches

variable (Wv : Valuation τ sig (Elt Ideal))

/-- After stretch 0: the aggregation of the input features. -/
theorem ops0_main_v20 : StableHlo.after hostOps0 Wv (Proc.devRef .tc main_v20)
    = val_main_v20 (F := Ideal) (Wv (Proc.devRef .tc main_arg0)) (Wv (Proc.devRef .tc main_arg1)) (Wv (Proc.devRef .tc main_arg2)) := by
  after_results_simp <;> rfl
/-- After stretch 0: the reciprocal clamped in-degree column. -/
theorem ops0_main_v8 : StableHlo.after hostOps0 Wv (Proc.devRef .tc main_v8) = val_main_v8 (F := Ideal) (Wv (Proc.devRef .tc main_arg2)) := by
  after_results_simp <;> rfl
/-- After stretch 0: layer 0's slice of the self weights. -/
theorem ops0_main_v25 : StableHlo.after hostOps0 Wv (Proc.devRef .tc main_v25) = val_main_v22 (F := Ideal) (Wv (Proc.devRef .tc main_arg3)) := by
  after_results_simp <;> rfl
/-- After stretch 0: layer 0's slice of the neighbour weights. -/
theorem ops0_main_v27 : StableHlo.after hostOps0 Wv (Proc.devRef .tc main_v27) = val_main_v25 (F := Ideal) (Wv (Proc.devRef .tc main_arg4)) := by
  after_results_simp <;> rfl
/-- After stretch 0: layer 0's bias vector laid out as a row. -/
theorem ops0_main_v23 : StableHlo.after hostOps0 Wv (Proc.devRef .tc main_v23)
    = shapeCast S1x128 (val_main_v29 (F := Ideal) (Wv (Proc.devRef .tc main_arg5))) shapeCasts_S128_S1x128 := by
  after_results_simp <;> rfl
theorem ops0_keep_main_arg0 : StableHlo.after hostOps0 Wv (Proc.devRef .tc main_arg0) = Wv (Proc.devRef .tc main_arg0) := by
  after_results_simp <;> rfl
theorem ops0_keep_main_arg1 : StableHlo.after hostOps0 Wv (Proc.devRef .tc main_arg1) = Wv (Proc.devRef .tc main_arg1) := by
  after_results_simp <;> rfl
theorem ops0_keep_main_arg2 : StableHlo.after hostOps0 Wv (Proc.devRef .tc main_arg2) = Wv (Proc.devRef .tc main_arg2) := by
  after_results_simp <;> rfl
theorem ops0_keep_main_arg3 : StableHlo.after hostOps0 Wv (Proc.devRef .tc main_arg3) = Wv (Proc.devRef .tc main_arg3) := by
  after_results_simp <;> rfl
theorem ops0_keep_main_arg4 : StableHlo.after hostOps0 Wv (Proc.devRef .tc main_arg4) = Wv (Proc.devRef .tc main_arg4) := by
  after_results_simp <;> rfl
theorem ops0_keep_main_arg5 : StableHlo.after hostOps0 Wv (Proc.devRef .tc main_arg5) = Wv (Proc.devRef .tc main_arg5) := by
  after_results_simp <;> rfl

/-- After stretch 1: the aggregated features are the aggregation of the previous layer's output. -/
theorem ops1_main_v40 : StableHlo.after hostOps1 Wv (Proc.devRef .tc main_v40)
    = Cert.ReferenceIdeal.RefValue.aggWith (F := Ideal) (Wv (Proc.devRef .tc main_v28)) (Wv (Proc.devRef .tc main_arg1)) (Wv (Proc.devRef .tc main_arg2)) (Wv (Proc.devRef .tc main_v8)) := by
  after_results_simp <;> rfl
/-- After stretch 1: layer 1's slice of the self weights. -/
theorem ops1_main_v45 : StableHlo.after hostOps1 Wv (Proc.devRef .tc main_v45) = val_main_v47 (F := Ideal) (Wv (Proc.devRef .tc main_arg3)) := by
  after_results_simp <;> rfl
/-- After stretch 1: layer 1's slice of the neighbour weights. -/
theorem ops1_main_v47 : StableHlo.after hostOps1 Wv (Proc.devRef .tc main_v47) = val_main_v50 (F := Ideal) (Wv (Proc.devRef .tc main_arg4)) := by
  after_results_simp <;> rfl
/-- After stretch 1: layer 1's bias vector laid out as a row. -/
theorem ops1_main_v43 : StableHlo.after hostOps1 Wv (Proc.devRef .tc main_v43)
    = shapeCast S1x128 (val_main_v54 (F := Ideal) (Wv (Proc.devRef .tc main_arg5))) shapeCasts_S128_S1x128 := by
  after_results_simp <;> rfl

theorem ops1_keep_main_v28 : StableHlo.after hostOps1 Wv (Proc.devRef .tc main_v28) = Wv (Proc.devRef .tc main_v28) := by
  after_results_simp <;> rfl
theorem ops1_keep_main_arg1 : StableHlo.after hostOps1 Wv (Proc.devRef .tc main_arg1) = Wv (Proc.devRef .tc main_arg1) := by
  after_results_simp <;> rfl
theorem ops1_keep_main_arg2 : StableHlo.after hostOps1 Wv (Proc.devRef .tc main_arg2) = Wv (Proc.devRef .tc main_arg2) := by
  after_results_simp <;> rfl
theorem ops1_keep_main_arg3 : StableHlo.after hostOps1 Wv (Proc.devRef .tc main_arg3) = Wv (Proc.devRef .tc main_arg3) := by
  after_results_simp <;> rfl
theorem ops1_keep_main_arg4 : StableHlo.after hostOps1 Wv (Proc.devRef .tc main_arg4) = Wv (Proc.devRef .tc main_arg4) := by
  after_results_simp <;> rfl
theorem ops1_keep_main_arg5 : StableHlo.after hostOps1 Wv (Proc.devRef .tc main_arg5) = Wv (Proc.devRef .tc main_arg5) := by
  after_results_simp <;> rfl
theorem ops1_keep_main_v8 : StableHlo.after hostOps1 Wv (Proc.devRef .tc main_v8) = Wv (Proc.devRef .tc main_v8) := by
  after_results_simp <;> rfl

/-- After stretch 2: the aggregated features are the aggregation of the previous layer's output. -/
theorem ops2_main_v60 : StableHlo.after hostOps2 Wv (Proc.devRef .tc main_v60)
    = Cert.ReferenceIdeal.RefValue.aggWith (F := Ideal) (Wv (Proc.devRef .tc main_v48)) (Wv (Proc.devRef .tc main_arg1)) (Wv (Proc.devRef .tc main_arg2)) (Wv (Proc.devRef .tc main_v8)) := by
  after_results_simp <;> rfl
/-- After stretch 2: layer 2's slice of the self weights. -/
theorem ops2_main_v65 : StableHlo.after hostOps2 Wv (Proc.devRef .tc main_v65) = val_main_v72 (F := Ideal) (Wv (Proc.devRef .tc main_arg3)) := by
  after_results_simp <;> rfl
/-- After stretch 2: layer 2's slice of the neighbour weights. -/
theorem ops2_main_v67 : StableHlo.after hostOps2 Wv (Proc.devRef .tc main_v67) = val_main_v75 (F := Ideal) (Wv (Proc.devRef .tc main_arg4)) := by
  after_results_simp <;> rfl
/-- After stretch 2: layer 2's bias vector laid out as a row. -/
theorem ops2_main_v63 : StableHlo.after hostOps2 Wv (Proc.devRef .tc main_v63)
    = shapeCast S1x128 (val_main_v79 (F := Ideal) (Wv (Proc.devRef .tc main_arg5))) shapeCasts_S128_S1x128 := by
  after_results_simp <;> rfl

theorem ops2_keep_main_v48 : StableHlo.after hostOps2 Wv (Proc.devRef .tc main_v48) = Wv (Proc.devRef .tc main_v48) := by
  after_results_simp <;> rfl

end Stretches

/-! ## The boundaries, from the launch memory -/

variable (m : (ℓ : Loc nD τ sig) → Buf (Elt Ideal) ℓ) (ρ : Dev nD → PrngReg)

/-- The six argument arrays as launched. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)

/-! ### At pallas_call 0's entry -/

theorem W1_arg0 (c : Dev nD) : W1 m ρ c (Proc.devRef .tc main_arg0) = a0 m c := ops0_keep_main_arg0 (W0 m ρ c)
theorem W1_arg1 (c : Dev nD) : W1 m ρ c (Proc.devRef .tc main_arg1) = a1 m c := ops0_keep_main_arg1 (W0 m ρ c)
theorem W1_arg2 (c : Dev nD) : W1 m ρ c (Proc.devRef .tc main_arg2) = a2 m c := ops0_keep_main_arg2 (W0 m ρ c)
theorem W1_arg3 (c : Dev nD) : W1 m ρ c (Proc.devRef .tc main_arg3) = a3 m c := ops0_keep_main_arg3 (W0 m ρ c)
theorem W1_arg4 (c : Dev nD) : W1 m ρ c (Proc.devRef .tc main_arg4) = a4 m c := ops0_keep_main_arg4 (W0 m ρ c)
theorem W1_arg5 (c : Dev nD) : W1 m ρ c (Proc.devRef .tc main_arg5) = a5 m c := ops0_keep_main_arg5 (W0 m ρ c)
theorem W1_v8 (c : Dev nD) : W1 m ρ c (Proc.devRef .tc main_v8) = val_main_v8 (F := Ideal) (a2 m c) := ops0_main_v8 (W0 m ρ c)
theorem W1_v20 (c : Dev nD) : W1 m ρ c (Proc.devRef .tc main_v20) = val_main_v20 (F := Ideal) (a0 m c) (a1 m c) (a2 m c) := ops0_main_v20 (W0 m ρ c)
theorem W1_v25 (c : Dev nD) : W1 m ρ c (Proc.devRef .tc main_v25) = val_main_v22 (F := Ideal) (a3 m c) := ops0_main_v25 (W0 m ρ c)
theorem W1_v27 (c : Dev nD) : W1 m ρ c (Proc.devRef .tc main_v27) = val_main_v25 (F := Ideal) (a4 m c) := ops0_main_v27 (W0 m ρ c)
theorem W1_v23 (c : Dev nD) : Pay.rowOf (W1 m ρ c (Proc.devRef .tc main_v23)) = fun q => val_main_v29 (F := Ideal) (a5 m c) (ix1 q) :=
  (congrArg Pay.rowOf (ops0_main_v23 (W0 m ρ c))).trans (row_of_cast _)

/-! ### At pallas_call 0's exit: the first hidden layer -/

theorem W2_v28 (c : Dev nD) : W2 m ρ c (Proc.devRef .tc main_v28) = val_main_v33 (F := Ideal) (a0 m c) (a1 m c) (a2 m c) (a3 m c) (a4 m c) (a5 m c) := by
  refine (W2_arr m ρ c 5).trans ((Reg0.final (V1 m ρ) c).trans ?_)
  show Sage.dense true (W1 m ρ c (Proc.devRef .tc main_arg0)) (W1 m ρ c (Proc.devRef .tc main_v20)) (W1 m ρ c (Proc.devRef .tc main_v25))
    (W1 m ρ c (Proc.devRef .tc main_v27)) (Pay.rowOf (W1 m ρ c (Proc.devRef .tc main_v23))) = _
  rw [W1_arg0, W1_v20, W1_v25, W1_v27, W1_v23]
  exact (Cert.ReferenceIdeal.RefValue.layer0 _ _ _ _ _ _).symm
theorem W2_arg1 (c : Dev nD) : W2 m ρ c (Proc.devRef .tc main_arg1) = a1 m c := (W2_of_ne m ρ c main_arg1 (by decide)).trans (W1_arg1 m ρ c)
theorem W2_arg2 (c : Dev nD) : W2 m ρ c (Proc.devRef .tc main_arg2) = a2 m c := (W2_of_ne m ρ c main_arg2 (by decide)).trans (W1_arg2 m ρ c)
theorem W2_arg3 (c : Dev nD) : W2 m ρ c (Proc.devRef .tc main_arg3) = a3 m c := (W2_of_ne m ρ c main_arg3 (by decide)).trans (W1_arg3 m ρ c)
theorem W2_arg4 (c : Dev nD) : W2 m ρ c (Proc.devRef .tc main_arg4) = a4 m c := (W2_of_ne m ρ c main_arg4 (by decide)).trans (W1_arg4 m ρ c)
theorem W2_arg5 (c : Dev nD) : W2 m ρ c (Proc.devRef .tc main_arg5) = a5 m c := (W2_of_ne m ρ c main_arg5 (by decide)).trans (W1_arg5 m ρ c)
theorem W2_v8 (c : Dev nD) : W2 m ρ c (Proc.devRef .tc main_v8) = val_main_v8 (F := Ideal) (a2 m c) := (W2_of_ne m ρ c main_v8 (by decide)).trans (W1_v8 m ρ c)

/-! ### At pallas_call 1's entry -/

theorem W3_arg1 (c : Dev nD) : W3 m ρ c (Proc.devRef .tc main_arg1) = a1 m c := (ops1_keep_main_arg1 (W2 m ρ c)).trans (W2_arg1 m ρ c)
theorem W3_arg2 (c : Dev nD) : W3 m ρ c (Proc.devRef .tc main_arg2) = a2 m c := (ops1_keep_main_arg2 (W2 m ρ c)).trans (W2_arg2 m ρ c)
theorem W3_arg3 (c : Dev nD) : W3 m ρ c (Proc.devRef .tc main_arg3) = a3 m c := (ops1_keep_main_arg3 (W2 m ρ c)).trans (W2_arg3 m ρ c)
theorem W3_arg4 (c : Dev nD) : W3 m ρ c (Proc.devRef .tc main_arg4) = a4 m c := (ops1_keep_main_arg4 (W2 m ρ c)).trans (W2_arg4 m ρ c)
theorem W3_arg5 (c : Dev nD) : W3 m ρ c (Proc.devRef .tc main_arg5) = a5 m c := (ops1_keep_main_arg5 (W2 m ρ c)).trans (W2_arg5 m ρ c)
theorem W3_v8 (c : Dev nD) : W3 m ρ c (Proc.devRef .tc main_v8) = val_main_v8 (F := Ideal) (a2 m c) := (ops1_keep_main_v8 (W2 m ρ c)).trans (W2_v8 m ρ c)
theorem W3_v28 (c : Dev nD) : W3 m ρ c (Proc.devRef .tc main_v28) = val_main_v33 (F := Ideal) (a0 m c) (a1 m c) (a2 m c) (a3 m c) (a4 m c) (a5 m c) :=
  (ops1_keep_main_v28 (W2 m ρ c)).trans (W2_v28 m ρ c)
theorem W3_v40 (c : Dev nD) : W3 m ρ c (Proc.devRef .tc main_v40) = val_main_v45 (F := Ideal) (a0 m c) (a1 m c) (a2 m c) (a3 m c) (a4 m c) (a5 m c) := by
  refine (ops1_main_v40 (W2 m ρ c)).trans ?_
  rw [W2_v28, W2_arg1, W2_arg2, W2_v8, Cert.ReferenceIdeal.RefValue.aggWith_eq]
  exact (Cert.ReferenceIdeal.RefValue.agg1 _ _ _ _ _ _).symm
theorem W3_v45 (c : Dev nD) : W3 m ρ c (Proc.devRef .tc main_v45) = val_main_v47 (F := Ideal) (a3 m c) := by
  refine (ops1_main_v45 (W2 m ρ c)).trans ?_; rw [W2_arg3]
theorem W3_v47 (c : Dev nD) : W3 m ρ c (Proc.devRef .tc main_v47) = val_main_v50 (F := Ideal) (a4 m c) := by
  refine (ops1_main_v47 (W2 m ρ c)).trans ?_; rw [W2_arg4]
theorem W3_v43 (c : Dev nD) : Pay.rowOf (W3 m ρ c (Proc.devRef .tc main_v43)) = fun q => val_main_v54 (F := Ideal) (a5 m c) (ix1 q) := by
  refine (congrArg Pay.rowOf (ops1_main_v43 (W2 m ρ c))).trans ?_; rw [W2_arg5]; exact row_of_cast _

/-! ### At pallas_call 1's exit: the second hidden layer -/

theorem W4_v48 (c : Dev nD) : W4 m ρ c (Proc.devRef .tc main_v48) = val_main_v58 (F := Ideal) (a0 m c) (a1 m c) (a2 m c) (a3 m c) (a4 m c) (a5 m c) := by
  refine (W4_arr m ρ c 5).trans ((Reg1.final (V3 m ρ) c).trans ?_)
  show Sage.dense true (W3 m ρ c (Proc.devRef .tc main_v28)) (W3 m ρ c (Proc.devRef .tc main_v40)) (W3 m ρ c (Proc.devRef .tc main_v45))
    (W3 m ρ c (Proc.devRef .tc main_v47)) (Pay.rowOf (W3 m ρ c (Proc.devRef .tc main_v43))) = _
  rw [W3_v28, W3_v40, W3_v45, W3_v47, W3_v43]
  exact (Cert.ReferenceIdeal.RefValue.layer1 _ _ _ _ _ _).symm
theorem W4_arg1 (c : Dev nD) : W4 m ρ c (Proc.devRef .tc main_arg1) = a1 m c := (W4_of_ne m ρ c main_arg1 (by decide)).trans (W3_arg1 m ρ c)
theorem W4_arg2 (c : Dev nD) : W4 m ρ c (Proc.devRef .tc main_arg2) = a2 m c := (W4_of_ne m ρ c main_arg2 (by decide)).trans (W3_arg2 m ρ c)
theorem W4_arg3 (c : Dev nD) : W4 m ρ c (Proc.devRef .tc main_arg3) = a3 m c := (W4_of_ne m ρ c main_arg3 (by decide)).trans (W3_arg3 m ρ c)
theorem W4_arg4 (c : Dev nD) : W4 m ρ c (Proc.devRef .tc main_arg4) = a4 m c := (W4_of_ne m ρ c main_arg4 (by decide)).trans (W3_arg4 m ρ c)
theorem W4_arg5 (c : Dev nD) : W4 m ρ c (Proc.devRef .tc main_arg5) = a5 m c := (W4_of_ne m ρ c main_arg5 (by decide)).trans (W3_arg5 m ρ c)
theorem W4_v8 (c : Dev nD) : W4 m ρ c (Proc.devRef .tc main_v8) = val_main_v8 (F := Ideal) (a2 m c) := (W4_of_ne m ρ c main_v8 (by decide)).trans (W3_v8 m ρ c)

/-! ### At pallas_call 2's entry -/

theorem W5_v48 (c : Dev nD) : W5 m ρ c (Proc.devRef .tc main_v48) = val_main_v58 (F := Ideal) (a0 m c) (a1 m c) (a2 m c) (a3 m c) (a4 m c) (a5 m c) :=
  (ops2_keep_main_v48 (W4 m ρ c)).trans (W4_v48 m ρ c)
theorem W5_v60 (c : Dev nD) : W5 m ρ c (Proc.devRef .tc main_v60) = val_main_v70 (F := Ideal) (a0 m c) (a1 m c) (a2 m c) (a3 m c) (a4 m c) (a5 m c) := by
  refine (ops2_main_v60 (W4 m ρ c)).trans ?_
  rw [W4_v48, W4_arg1, W4_arg2, W4_v8, Cert.ReferenceIdeal.RefValue.aggWith_eq]
  exact (Cert.ReferenceIdeal.RefValue.agg2 _ _ _ _ _ _).symm
theorem W5_v65 (c : Dev nD) : W5 m ρ c (Proc.devRef .tc main_v65) = val_main_v72 (F := Ideal) (a3 m c) := by
  refine (ops2_main_v65 (W4 m ρ c)).trans ?_; rw [W4_arg3]
theorem W5_v67 (c : Dev nD) : W5 m ρ c (Proc.devRef .tc main_v67) = val_main_v75 (F := Ideal) (a4 m c) := by
  refine (ops2_main_v67 (W4 m ρ c)).trans ?_; rw [W4_arg4]
theorem W5_v63 (c : Dev nD) : Pay.rowOf (W5 m ρ c (Proc.devRef .tc main_v63)) = fun q => val_main_v79 (F := Ideal) (a5 m c) (ix1 q) := by
  refine (congrArg Pay.rowOf (ops2_main_v63 (W4 m ρ c))).trans ?_; rw [W4_arg5]; exact row_of_cast _

/-! ### At pallas_call 2's exit: the result -/

/-- The result buffer at the last boundary holds the reference's output stage of the launched arguments. -/
theorem W6_v68 (c : Dev nD) : W6 m ρ c (Proc.devRef .tc main_v68) = val_main_v82 (F := Ideal) (a0 m c) (a1 m c) (a2 m c) (a3 m c) (a4 m c) (a5 m c) := by
  refine (W6_arr m ρ c 5).trans ((Reg2.final (V5 m ρ) c).trans ?_)
  show Sage.dense false (W5 m ρ c (Proc.devRef .tc main_v48)) (W5 m ρ c (Proc.devRef .tc main_v60)) (W5 m ρ c (Proc.devRef .tc main_v65))
    (W5 m ρ c (Proc.devRef .tc main_v67)) (Pay.rowOf (W5 m ρ c (Proc.devRef .tc main_v63))) = _
  rw [W5_v48, W5_v60, W5_v65, W5_v67, W5_v63]
  exact (Cert.ReferenceIdeal.RefValue.layer2 _ _ _ _ _ _).symm

end Cert.KernelIdeal.Fold

end
-- ==== Proof.lean ====
/-
  Three stacked graph-convolution layers with mean aggregation over 40000 nodes and 640000 edges, 128 features:
  a kernel that runs each layer's dense part as a pallas_call over blocks of 2000 node rows, against the plain
  reference, at the ideal values.

  Both programs compute the reciprocal clamped in-degree of every node once, and then three times
      agg = (scatter-add along dst of the rows gathered along src) · (1 / max(deg, 1)),
      h'  = (h · W_self[l] + agg · W_neigh[l]) + b[l],   followed by max(·, 0) after the first two layers.
  The aggregation is the same chain of host operations in both programs; it is carried as one function of
  (features, src, dst) and never opened. The dense part is where they differ: the reference takes two whole
  `dot_general`s, the kernel rounds its operands to bf16 (the identity at the ideal values) and multiplies 2000-row
  blocks into zero accumulators. Entry (p, q) of either is the same two sums over the 128 contracted positions plus
  the bias at column q, grouped the same way, and an entry reads the features only along its own row, so the
  kernel's twenty row blocks tile exactly the reference's array. No law of the extended reals beyond commutative-monoid
  bookkeeping is used, and the precondition is never opened.

  The kernel's result is read off its run boundary by boundary (KernelRun, Region0–2, KernelFold); the reference's
  off its generated run and stages (RefLayers). The ideal pass rewrote nothing, so the preservation claim is `True`.
-/
import proofs.«104616_j28398323761564_1_alg».proof.Defs
import proofs.«104616_j28398323761564_1_alg».proof.Proof.Gen.Kernel
import proofs.«104616_j28398323761564_1_alg».proof.Proof.Gen.Kernel.Skeleton
import proofs.«104616_j28398323761564_1_alg».proof.Proof.Gen.Kernel.Launch
import proofs.«104616_j28398323761564_1_alg».proof.Proof.Gen.Kernel.Points
import proofs.«104616_j28398323761564_1_alg».proof.Proof.Gen.Kernel.Frame
import proofs.«104616_j28398323761564_1_alg».proof.Proof.Gen.KernelIdeal
import proofs.«104616_j28398323761564_1_alg».proof.Proof.Gen.KernelIdeal.Skeleton
import proofs.«104616_j28398323761564_1_alg».proof.Proof.Gen.KernelIdeal.Launch
import proofs.«104616_j28398323761564_1_alg».proof.Proof.Gen.KernelIdeal.Points
import proofs.«104616_j28398323761564_1_alg».proof.Proof.Gen.KernelIdeal.Frame
import proofs.«104616_j28398323761564_1_alg».proof.Proof.Gen.ReferenceIdeal
import proofs.«104616_j28398323761564_1_alg».proof.Proof.Gen.Pre_finite_inputs
import proofs.«104616_j28398323761564_1_alg».proof.Proof.Gen.ReferenceIdeal.Run
import proofs.«104616_j28398323761564_1_alg».proof.Proof.Gen.ReferenceIdeal.Read
import proofs.«104616_j28398323761564_1_alg».proof.Proof.KernelRun
import proofs.«104616_j28398323761564_1_alg».proof.Proof.KernelFold
import Idealize.ShloMosaic.Adequacy
import Idealize.ShloMosaic.Init

noncomputable section

namespace Cert.Proof

open Idealize.ShloMosaic Idealize.SL.Sem

/-- The word-level kernel runs and leaves its arguments. -/
theorem frame_kernel : Cert.frame_Kernel := fun m ρ _ => Cert.Kernel.Gen.frame m ρ

/-- The idealized kernel runs and leaves its arguments. -/
theorem frame_kernelIdeal : Cert.frame_KernelIdeal := fun m ρ _ => Cert.KernelIdeal.Gen.frame m ρ

/-- The idealized reference runs and leaves its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the same result array: the reference's output
    stage of the arguments, which the kernel's last pallas_call leaves in its result buffer. -/
theorem algebraic : Cert.algebraic_KernelIdeal_ReferenceIdeal := by
  intro m ρ m' ρ' _ hagree
  refine ⟨fun c => Cert.ReferenceIdeal.Read.val_main_v82 (F := Ideal) (Cert.KernelIdeal.Fold.a0 m c) (Cert.KernelIdeal.Fold.a1 m c)
    (Cert.KernelIdeal.Fold.a2 m c) (Cert.KernelIdeal.Fold.a3 m c) (Cert.KernelIdeal.Fold.a4 m c) (Cert.KernelIdeal.Fold.a5 m c), ?_, ?_⟩
  · exact (θ_run Cert.KernelIdeal.defs _ _).mono
      (fun _ h c => ⟨(h c).1.trans (Cert.KernelIdeal.Fold.W6_v68 m ρ c), (h c).2⟩) (Cert.KernelIdeal.Run.run_value (F := Ideal) m ρ)
  · refine (θ_run Cert.ReferenceIdeal.defs _ _).mono (fun _ h c => ⟨(h c).1.trans ?_, (h c).2⟩)
      (Cert.ReferenceIdeal.Value.run (F := Ideal) m' ρ')
    have e := Cert.ReferenceIdeal.Read.val_main_v82_eq (F := Ideal) m' c
    rw [(hagree c).1, (hagree c).2.1, (hagree c).2.2.1, (hagree c).2.2.2.1, (hagree c).2.2.2.2.1, (hagree c).2.2.2.2.2] at e
    exact e

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
